-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x896x1344x6 : Shape := ⟨4, ![1, 896, 1344, 6]⟩
abbrev S6x32 : Shape := ⟨2, ![6, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S_ : Shape := ⟨0, ![]⟩

class Facts : Prop where
  bcast_S_S1x896x1344x6 : S_.BroadcastsInDim S1x896x1344x6 (![] : Fin 0 → Fin S1x896x1344x6.rank)
  reducesTo_S1x896x1344x6_S_d0_1_2_3 : S1x896x1344x6.ReducesTo [0, 1, 2, 3] S_
  h_S_ : 0 < S_.numel
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S32 .f32) (main_arg5 : FVec F S32x3 .f32) (main_arg6 : FVec F S3 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x3 .f32 := Host.absf main_arg5
  let main_cst_8 : FVec F S_ .f32 := constant S_ .f32 0x7F800000#32
  let main_v25 : FVec F S32x3 .f32 := broadcastInDim S32x3 ![] bcast_S_S32x3 main_cst_8
  let main_v26 : IVec S32x3 1 := cmpf .olt main_v24 main_v25
  let main_c_9 : IVec S_ 1 := constantI S_ 1 1#1
  let main_v27 : IVec S_ 1 := (fun x v => Host.reduce IntOp.andi x v reducesTo_S32x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S1x896x1344x6 .f32) (main_arg1 : FVec F S6x32 .f32) (main_arg2 : FVec F S32 .f32) (main_arg3 : FVec F S32x32 .f32) (main_arg4 : FVec F S32 .f32) (main_arg5 : FVec F S32x3 .f32) (main_arg6 : FVec F S3 .f32) : IVec S_ 1 :=
  let main_v0 : FVec F S1x896x1344x6 .f32 := Host.absf main_arg0
  let main_cst : FVec F S_ .f32 := constant S_ .f32 0x7F800000#32
  let main_v1 : FVec F S1x896x1344x6 .f32 := broadcastInDim S1x896x1344x6 ![] bcast_S_S1x896x1344x6 main_cst
  let main_v2 : IVec S1x896x1344x6 1 := cmpf .olt main_v0 main_v1
  let main_c : IVec S_ 1 := constantI S_ 1 1#1
  let main_v3 : IVec S_ 1 := (fun x v => Host.reduce IntOp.andi x v reducesTo_S1x896x1344x6_S_d0_1_2_3 h_S_) main_v2 main_c
  let main_v4 : FVec F S6x32 .f32 := Host.absf main_arg1
  let main_cst_0 : FVec F S_ .f32 := constant S_ .f32 0x7F800000#32
  let main_v5 : FVec F S6x32 .f32 := broadcastInDim S6x32 ![] bcast_S_S6x32 main_cst_0
  let main_v6 : IVec S6x32 1 := cmpf .olt main_v4 main_v5
  let main_c_1 : IVec S_ 1 := constantI S_ 1 1#1
  let main_v7 : IVec S_ 1 := (fun x v => Host.reduce IntOp.andi x v reducesTo_S6x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_v13 main_v16
-- ==== Kernel.lean ====
abbrev S1x896x1344x6 : Shape := ⟨4, ![1, 896, 1344, 6]⟩
abbrev S6x32 : Shape := ⟨2, ![6, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S1204224x6 : Shape := ⟨2, ![1204224, 6]⟩
abbrev S6x1204224 : Shape := ⟨2, ![6, 1204224]⟩
abbrev S32x6 : Shape := ⟨2, ![32, 6]⟩
abbrev S3x32 : Shape := ⟨2, ![3, 32]⟩
abbrev S32x1 : Shape := ⟨2, ![32, 1]⟩
abbrev S3x1 : Shape := ⟨2, ![3, 1]⟩
abbrev S3x1204224 : Shape := ⟨2, ![3, 1204224]⟩
abbrev S6x24576 : Shape := ⟨2, ![6, 24576]⟩
abbrev S3x24576 : Shape := ⟨2, ![3, 24576]⟩
abbrev S32x24576 : Shape := ⟨2, ![32, 24576]⟩
abbrev S1204224x3 : Shape := ⟨2, ![1204224, 3]⟩
abbrev S1x896x1344x3 : Shape := ⟨4, ![1, 896, 1344, 3]⟩

abbrev nBuf : Space → Nat
  | .hbm => 21
  | .vmem => 10
  | .smem => 0
  | _ => 0

abbrev bufTy : (tb : Table) → Fin (tcTables nBuf tb) → BufTy
  | .hbm, ⟨0, _⟩ => ⟨S1x896x1344x6, .f32⟩
  | .hbm, ⟨1, _⟩ => ⟨S6x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x3, .f32⟩
  | .hbm, ⟨6, _⟩ => ⟨S3, .f32⟩
  | .hbm, ⟨7, _⟩ => ⟨S1204224x6, .f32⟩
  | .hbm, ⟨8, _⟩ => ⟨S6x1204224, .f32⟩
  | .hbm, ⟨9, _⟩ => ⟨S32x6, .f32⟩
  | .hbm, ⟨10, _⟩ => ⟨S32x6, .bf16⟩
  | .hbm, ⟨11, _⟩ => ⟨S32x32, .f32⟩
  | .hbm, ⟨12, _⟩ => ⟨S32x32, .bf16⟩
  | .hbm, ⟨13, _⟩ => ⟨S3x32, .f32⟩
  | .hbm, ⟨14, _⟩ => ⟨S3x32, .bf16⟩
  | .hbm, ⟨15, _⟩ => ⟨S32x1, .f32⟩
  | .hbm, ⟨16, _⟩ => ⟨S32x1, .f32⟩
  | .hbm, ⟨17, _⟩ => ⟨S3x1, .f32⟩
  | .hbm, ⟨18, _⟩ => ⟨S3x1204224, .f32⟩
  | .hbm, ⟨19, _⟩ => ⟨S1204224x3, .f32⟩
  | .hbm, ⟨20, _⟩ => ⟨S1x896x1344x3, .f32⟩
  | .local _ .vmem, ⟨0, _⟩ => ⟨S6x24576, .f32⟩
  | .local _ .vmem, ⟨1, _⟩ => ⟨S6x24576, .f32⟩
  | .local _ .vmem, ⟨2, _⟩ => ⟨S32x6, .bf16⟩
  | .local _ .vmem, ⟨3, _⟩ => ⟨S32x1, .f32⟩
  | .local _ .vmem, ⟨4, _⟩ => ⟨S32x32, .bf16⟩
  | .local _ .vmem, ⟨5, _⟩ => ⟨S32x1, .f32⟩
  | .local _ .vmem, ⟨6, _⟩ => ⟨S3x32, .bf16⟩
  | .local _ .vmem, ⟨7, _⟩ => ⟨S3x1, .f32⟩
  | .local _ .vmem, ⟨8, _⟩ => ⟨S3x24576, .f32⟩
  | .local _ .vmem, ⟨9, _⟩ => ⟨S3x24576, .f32⟩
  | _, _ => ⟨S1x896x1344x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x24576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x6 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x24576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x896x1344x6_S1204224x6 : S1x896x1344x6.ShapeCasts S1204224x6
  transposes_S1204224x6_S6x1204224_1_0 : S1204224x6.Transposes [1, 0] S6x1204224
  transposes_S6x32_S32x6_1_0 : S6x32.Transposes [1, 0] S32x6
  bitsLt_bf16_f32 : FTy.bits .bf16 < FTy.bits .f32
  transposes_S32x32_S32x32_1_0 : S32x32.Transposes [1, 0] S32x32
  transposes_S32x3_S3x32_1_0 : S32x3.Transposes [1, 0] S3x32
  shapeCasts_S32_S32x1 : S32.ShapeCasts S32x1
  shapeCasts_S3_S3x1 : S3.ShapeCasts S3x1
  inb_S6x24576_S6x24576_0_0 : ∀ a, (![0, 0] : Fin 2 → Nat) a + S6x24576.size a ≤ S6x24576.size a
  h_S6x24576 : 0 < S6x24576.numel
  shapeCasts_S6x24576_S6x24576 : S6x24576.ShapeCasts S6x24576
  inb_S32x6_S32x6_0_0 : ∀ a, (![0, 0] : Fin 2 → Nat) a + S32x6.size a ≤ S32x6.size a
  h_S32x6 : 0 < S32x6.numel
  shapeCasts_S32x6_S32x6 : S32x6.ShapeCasts S32x6
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x24576 : S32x1.Broadcasts S32x24576
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x24576 : S3x1.Broadcasts S3x24576
  inb_S3x24576_S3x24576_0_0 : ∀ a, (![0, 0] : Fin 2 → Nat) a + S3x24576.size a ≤ S3x24576.size a
  h_S3x24576 : 0 < S3x24576.numel
  transposes_S3x1204224_S1204224x3_1_0 : S3x1204224.Transposes [1, 0] S1204224x3
  shapeCasts_S1204224x3_S1x896x1344x3 : S1204224x3.ShapeCasts S1x896x1344x3
  dot_S32x6_S6x24576_S32x24576_1_0_0_1_n_n_wf : DotDims.WF S32x6 S6x24576 S32x24576 [1] [0] [0] [1] [] []
  dot_S32x32_S32x24576_S32x24576_1_0_0_1_n_n_wf : DotDims.WF S32x32 S32x24576 S32x24576 [1] [0] [0] [1] [] []
  dot_S3x32_S32x24576_S3x24576_1_0_0_1_n_n_wf : DotDims.WF S3x32 S32x24576 S3x24576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x24576.size a ≤ S6x1204224.size a
  hwx0_0 : ∀ i : grid0.Coords, EltTy.bits .f32 = 32 ∨ (Rect.block (s := S6x1204224) S6x24576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x6.size a ≤ S32x6.size a
  hwx0_1 : ∀ i : grid0.Coords, EltTy.bits .bf16 = 32 ∨ (Rect.block (s := S32x6) S32x6.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .bf16 = 32 ∨ (Rect.block (s := S32x32) S32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x32.size a ≤ S3x32.size a
  hwx0_5 : ∀ i : grid0.Coords, EltTy.bits .bf16 = 32 ∨ (Rect.block (s := S3x32) S3x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x24576.size a ≤ S3x1204224.size a
  hwx0_7 : ∀ i : grid0.Coords, EltTy.bits .f32 = 32 ∨ (Rect.block (s := S3x1204224) S3x24576.size (cc0_transform_7 i) (hinb0_7 i)).WholeWords (EltTy.packing .f32)

variable [Facts₀]

def dot_S32x6_S6x24576_S32x24576_1_0_0_1_n_n : DotDims S32x6 S6x24576 S32x24576 where
  lhsContracting := [1]
  rhsContracting := [0]
  lhsNonContracting := [0]
  rhsNonContracting := [1]
  lhsBatch := []
  rhsBatch := []
  wf := dot_S32x6_S6x24576_S32x24576_1_0_0_1_n_n_wf
def dot_S32x32_S32x24576_S32x24576_1_0_0_1_n_n : DotDims S32x32 S32x24576 S32x24576 where
  lhsContracting := [1]
  rhsContracting := [0]
  lhsNonContracting := [0]
  rhsNonContracting := [1]
  lhsBatch := []
  rhsBatch := []
  wf := dot_S32x32_S32x24576_S32x24576_1_0_0_1_n_n_wf
def dot_S3x32_S32x24576_S3x24576_1_0_0_1_n_n : DotDims S3x32 S32x24576 S3x24576 where
  lhsContracting := [1]
  rhsContracting := [0]
  lhsNonContracting := [0]
  rhsNonContracting := [1]
  lhsBatch := []
  rhsBatch := []
  wf := dot_S3x32_S32x24576_S3x24576_1_0_0_1_n_n_wf

abbrev win0_0 : Pipeline.Window sig grid0 :=
  Pipeline.Window.ofSpec (Memref.whole main_v1) S6x24576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S3x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S3x24576.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x896x1344x6 : Shape := ⟨4, ![1, 896, 1344, 6]⟩
abbrev S6x32 : Shape := ⟨2, ![6, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S1x896x1344x32 : Shape := ⟨4, ![1, 896, 1344, 32]⟩
abbrev S1x1x1x32 : Shape := ⟨4, ![1, 1, 1, 32]⟩
abbrev S_ : Shape := ⟨0, ![]⟩
abbrev S1x896x1344x3 : Shape := ⟨4, ![1, 896, 1344, 3]⟩
abbrev S1x1x1x3 : Shape := ⟨4, ![1, 1, 1, 3]⟩

abbrev nBuf : Space → Nat
  | .hbm => 28
  | .vmem => 0
  | .smem => 0
  | _ => 0

abbrev bufTy : (tb : Table) → Fin (tcTables nBuf tb) → BufTy
  | .hbm, ⟨0, _⟩ => ⟨S1x896x1344x6, .f32⟩
  | .hbm, ⟨1, _⟩ => ⟨S6x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x3, .f32⟩
  | .hbm, ⟨6, _⟩ => ⟨S3, .f32⟩
  | .hbm, ⟨7, _⟩ => ⟨S1x896x1344x32, .f32⟩
  | .hbm, ⟨8, _⟩ => ⟨S1x1x1x32, .f32⟩
  | .hbm, ⟨9, _⟩ => ⟨S1x896x1344x32, .f32⟩
  | .hbm, ⟨10, _⟩ => ⟨S1x896x1344x32, .f32⟩
  | .hbm, ⟨11, _⟩ => ⟨S_, .f32⟩
  | .hbm, ⟨12, _⟩ => ⟨S1x896x1344x32, .f32⟩
  | .hbm, ⟨13, _⟩ => ⟨S1x896x1344x32, .f32⟩
  | .hbm, ⟨14, _⟩ => ⟨S1x896x1344x32, .f32⟩
  | .hbm, ⟨15, _⟩ => ⟨S1x1x1x32, .f32⟩
  | .hbm, ⟨16, _⟩ => ⟨S1x896x1344x32, .f32⟩
  | .hbm, ⟨17, _⟩ => ⟨S1x896x1344x32, .f32⟩
  | .hbm, ⟨18, _⟩ => ⟨S_, .f32⟩
  | .hbm, ⟨19, _⟩ => ⟨S1x896x1344x32, .f32⟩
  | .hbm, ⟨20, _⟩ => ⟨S1x896x1344x32, .f32⟩
  | .hbm, ⟨21, _⟩ => ⟨S1x896x1344x3, .f32⟩
  | .hbm, ⟨22, _⟩ => ⟨S1x1x1x3, .f32⟩
  | .hbm, ⟨23, _⟩ => ⟨S1x896x1344x3, .f32⟩
  | .hbm, ⟨24, _⟩ => ⟨S1x896x1344x3, .f32⟩
  | .hbm, ⟨25, _⟩ => ⟨S_, .f32⟩
  | .hbm, ⟨26, _⟩ => ⟨S1x896x1344x3, .f32⟩
  | .hbm, ⟨27, _⟩ => ⟨S1x896x1344x3, .f32⟩
  | _, _ => ⟨S1x896x1344x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_cst : Ref sig .tc := ⟨.hbm, 25, rfl⟩
abbrev main_call2_v0 : Ref sig .tc := ⟨.hbm, 26, rfl⟩
abbrev main_v14 : Ref sig .tc := ⟨.hbm, 27, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S1x896x1344x32_0_1_2_3 : S1x1x1x32.BroadcastsInDim S1x896x1344x32 (![0, 1, 2, 3] : Fin 4 → Fin S1x896x1344x32.rank)
  bcast_S_S1x896x1344x32 : S_.BroadcastsInDim S1x896x1344x32 (![] : Fin 0 → Fin S1x896x1344x32.rank)
  bcast_S3_S1x1x1x3_3 : S3.BroadcastsInDim S1x1x1x3 (![3] : Fin 1 → Fin S1x1x1x3.rank)
  bcast_S1x1x1x3_S1x896x1344x3_0_1_2_3 : S1x1x1x3.BroadcastsInDim S1x896x1344x3 (![0, 1, 2, 3] : Fin 4 → Fin S1x896x1344x3.rank)
  bcast_S_S1x896x1344x3 : S_.BroadcastsInDim S1x896x1344x3 (![] : Fin 0 → Fin S1x896x1344x3.rank)
  dot_S1x896x1344x6_S6x32_S1x896x1344x32_3_0_012_1_n_n_wf : DotDims.WF S1x896x1344x6 S6x32 S1x896x1344x32 [3] [0] [0, 1, 2] [1] [] []
  dot_S1x896x1344x32_S32x32_S1x896x1344x32_3_0_012_1_n_n_wf : DotDims.WF S1x896x1344x32 S32x32 S1x896x1344x32 [3] [0] [0, 1, 2] [1] [] []
  dot_S1x896x1344x32_S32x3_S1x896x1344x3_3_0_012_1_n_n_wf : DotDims.WF S1x896x1344x32 S32x3 S1x896x1344x3 [3] [0] [0, 1, 2] [1] [] []

variable [Facts₀]

def dot_S1x896x1344x6_S6x32_S1x896x1344x32_3_0_012_1_n_n : DotDims S1x896x1344x6 S6x32 S1x896x1344x32 where
  lhsContracting := [3]
  rhsContracting := [0]
  lhsNonContracting := [0, 1, 2]
  rhsNonContracting := [1]
  lhsBatch := []
  rhsBatch := []
  wf := dot_S1x896x1344x6_S6x32_S1x896x1344x32_3_0_012_1_n_n_wf
def dot_S1x896x1344x32_S32x32_S1x896x1344x32_3_0_012_1_n_n : DotDims S1x896x1344x32 S32x32 S1x896x1344x32 where
  lhsContracting := [3]
  rhsContracting := [0]
  lhsNonContracting := [0, 1, 2]
  rhsNonContracting := [1]
  lhsBatch := []
  rhsBatch := []
  wf := dot_S1x896x1344x32_S32x32_S1x896x1344x32_3_0_012_1_n_n_wf
def dot_S1x896x1344x32_S32x3_S1x896x1344x3_3_0_012_1_n_n : DotDims S1x896x1344x32 S32x3 S1x896x1344x3 where
  lhsContracting := [3]
  rhsContracting := [0]
  lhsNonContracting := [0, 1, 2]
  rhsNonContracting := [1]
  lhsBatch := []
  rhsBatch := []
  wf := dot_S1x896x1344x32_S32x3_S1x896x1344x3_3_0_012_1_n_n_wf

class Facts : Prop extends Facts₀ where

variable [Facts]
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.PixelMlp.lean ====
/-
  The per-pixel network on the extended reals.

  A dense layer followed by a rectifier sends a feature vector `x` to `a ↦ max (∑ k, W a k · x k + bias a) 0`; the
  network is three such layers, 6 → 32 → 32 → 3. Both programs compute it at every pixel: one with the features as the
  columns of a matrix (weights on the left of each product), the other with the features as the rows (weights on the
  right). Multiplication of extended reals commutes, so the two spellings of a layer agree; nothing here needs the
  values to be finite.

  Also here: the first spelling read at an entry of a block — an `A × K` by `K × B` product accumulated into zero, a
  bias column broadcast along the rows' entries, the maximum with the zero word.
-/
import Idealize.ShloMosaic.Lib.Pipeline.Value
import Idealize.ShloMosaic.Lib.ValueIdx
import Idealize.ShloMosaic.PureOps.Ideal.Laws
import proofs.«138936_j58059367907527_2_alg».proof.Proof.LibMatmulPlain

noncomputable section

namespace Cert.PixelMlp

open Idealize.ShloMosaic Idealize.ShloMosaic.ValueIdx

/-- The rectifier's floor: the value the f32 zero word denotes. -/
abbrev floor0 : EReal := Ideal.ofBits .f32 0x00000000#32

/-- One dense layer and the rectifier on one pixel's features: `max (∑ k, W a k · x k + bias a) 0`. -/
def denseRelu {A K : ℕ} (W : Fin A → Fin K → EReal) (bias : Fin A → EReal) (x : Fin K → EReal) (a : Fin A) : EReal :=
  max ((∑ k : Fin K, W a k * x k) + bias a) floor0

/-- The same layer with each product written features first: multiplication commutes. -/
theorem denseRelu_comm {A K : ℕ} (W : Fin A → Fin K → EReal) (bias : Fin A → EReal) (x : Fin K → EReal) (a : Fin A) :
    max ((∑ k : Fin K, x k * W a k) + bias a) floor0 = denseRelu W bias x a :=
  congrArg (fun s => max (s + bias a) floor0) (Finset.sum_congr rfl fun k _ => mul_comm (x k) (W a k))

/-- The three layers on one pixel's six features. -/
def mlp (W1 : Fin 32 → Fin 6 → EReal) (b1 : Fin 32 → EReal) (W2 : Fin 32 → Fin 32 → EReal) (b2 : Fin 32 → EReal)
    (W3 : Fin 3 → Fin 32 → EReal) (b3 : Fin 3 → EReal) (x : Fin 6 → EReal) : Fin 3 → EReal :=
  denseRelu W3 b3 (denseRelu W2 b2 (denseRelu W1 b1 x))

/-- A column `[A, 1]` broadcast to `[A, B]` reads, at `(a, b)`, the column's entry `a`. -/
theorem broadcast_column_apply {A B : ℕ} {α : Type} (v : (⟨2, ![A, 1]⟩ : Shape).Idx → α)
    (h : (⟨2, ![A, 1]⟩ : Shape).Broadcasts ⟨2, ![A, B]⟩) (a : Fin A) (b : Fin B) :
    broadcastTo ⟨2, ![A, B]⟩ v h (ix2 a b) = v (ix2 a 0) := by
  refine broadcastTo_apply v h (ix2 a b) (ix2 a 0) fun x => ?_
  match x with
  | ⟨0, _⟩ =>
    show a.val = if A = 1 then 0 else a.val
    have := a.isLt
    split <;> omega
  | ⟨1, _⟩ =>
    show 0 = if (1 : ℕ) = 1 then 0 else b.val
    rw [if_pos rfl]

/-- A layer computed on a block whose columns are pixels: entry `(a, b)` of `max (W · X + bias, 0)` is the layer of
    column `b` of `X`, at `a`. -/
theorem dense_relu_block_apply {A K B : ℕ} {φ₁ φ₂ : FTy} (W : FVec Ideal ⟨2, ![A, K]⟩ φ₁) (X : FVec Ideal ⟨2, ![K, B]⟩ φ₂)
    (bias : FVec Ideal ⟨2, ![A, 1]⟩ .f32) (h : (⟨2, ![A, 1]⟩ : Shape).Broadcasts ⟨2, ![A, B]⟩) (a : Fin A) (b : Fin B) :
    maximumf (addf (matmul (DotDims.plain A K B) none W X (constant (F := Ideal) ⟨2, ![A, B]⟩ .f32 0x00000000#32))
          (broadcastTo ⟨2, ![A, B]⟩ bias h))
        (broadcast ⟨2, ![A, B]⟩ (Scalar.ofBits (F := Ideal) .f32 0x00000000#32)) (ix2 a b)
      = denseRelu (fun a k => W (ix2 a k)) (fun a => bias (ix2 a 0)) (fun k => X (ix2 k b)) a := by
  rw [maximumf_apply, addf_apply, broadcast_apply, broadcast_column_apply]
  simp only [matmul]
  rw [Cert.Lib.MatmulPlain.matmul_plain_zero_apply]
  rfl

end Cert.PixelMlp

end
-- ==== Proof.KernelBody.lean ====
/-
  What the kernel's body stores, read at an entry.

  The body loads a block of 24576 pixels as the columns of a `6 × 24576` matrix, together with the three weight
  matrices (rows = output features) and the three bias columns, and stores `max (W₃ · max (W₂ · max (W₁ · X + b₁, 0) +
  b₂, 0) + b₃, 0)`, each product accumulated into zero and each intermediate narrowed to sixteen bits, which on the
  extended reals changes nothing. So entry `(c, q)` of what it stores is the per-pixel network of column `q`, at `c`.
-/
import proofs.«138936_j58059367907527_2_alg».proof.Proof.Gen.KernelIdeal.Skeleton
import proofs.«138936_j58059367907527_2_alg».proof.Proof.PixelMlp

noncomputable section

namespace Cert.KernelIdeal.Body

open Cert.KernelIdeal Cert.KernelIdeal.Gen Idealize.ShloMosaic Idealize.ShloMosaic.ValueIdx Cert.PixelMlp

/-- The program's three contraction records are the plain `rows × shared` by `shared × columns` one. -/
theorem dot1_eq : dot_S32x6_S6x24576_S32x24576_1_0_0_1_n_n = DotDims.plain 32 6 24576 := rfl
theorem dot2_eq : dot_S32x32_S32x24576_S32x24576_1_0_0_1_n_n = DotDims.plain 32 32 24576 := rfl
theorem dot3_eq : dot_S3x32_S32x24576_S3x24576_1_0_0_1_n_n = DotDims.plain 3 32 24576 := rfl

/-- Entry `(c, q)` of the stored block is the network of pixel column `q`, at output feature `c`. -/
theorem pay_apply (x0 : Vec Ideal S6x24576 .f32) (x1 : Vec Ideal S32x6 .bf16) (x2 : Vec Ideal S32x1 .f32)
    (x3 : Vec Ideal S32x32 .bf16) (x4 : Vec Ideal S32x1 .f32) (x5 : Vec Ideal S3x32 .bf16) (x6 : Vec Ideal S3x1 .f32)
    (c : Fin 3) (q : Fin 24576) :
    k0_pay1 (F := Ideal) x0 x1 x2 x3 x4 x5 x6 (ix2 c q)
      = mlp (fun j i => x1 (ix2 j i)) (fun j => x2 (ix2 j 0)) (fun k j => x3 (ix2 k j)) (fun k => x4 (ix2 k 0))
          (fun c k => x5 (ix2 c k)) (fun c => x6 (ix2 c 0)) (fun i => x0 (ix2 i q)) c := by
  unfold k0_pay1 mlp
  simp only [shapeCast_self, dot1_eq, dot2_eq, dot3_eq]
  refine (dense_relu_block_apply (A := 3) (K := 32) (B := 24576) x5 _ x6 _ c q).trans ?_
  refine congrArg (fun v => denseRelu _ _ v c) (funext fun k => ?_)
  rw [truncf_apply]
  refine (dense_relu_block_apply (A := 32) (K := 32) (B := 24576) x3 _ x4 _ k q).trans ?_
  refine congrArg (fun v => denseRelu _ _ v k) (funext fun j => ?_)
  rw [truncf_apply]
  refine (dense_relu_block_apply (A := 32) (K := 6) (B := 24576) x1 _ x2 _ j q).trans ?_
  refine congrArg (fun v => denseRelu _ _ v j) (funext fun i => ?_)
  rw [truncf_apply]

end Cert.KernelIdeal.Body

end
-- ==== Proof.Pixels.lean ====
/-
  Pixels, flat and by row and column.

  The image has 896 rows of 1344 pixels: 1204224 pixels, numbered row by row. Pixel `p` sits in row `p / 1344` at column
  `p % 1344`, and `1204224 = 49 · 24576`: the flat axis splits exactly into 49 runs of 24576 pixels.
-/
import Mathlib.Tactic

namespace Cert.Pixels

/-- The row of flat pixel `p`. -/
def pixH (p : Fin 1204224) : Fin 896 := ⟨p.val / 1344, by have := p.isLt; omega⟩
/-- The column of flat pixel `p`. -/
def pixW (p : Fin 1204224) : Fin 1344 := ⟨p.val % 1344, by omega⟩
/-- The flat number of the pixel in row `h`, column `w`. -/
def pixOf (h : Fin 896) (w : Fin 1344) : Fin 1204224 := ⟨h.val * 1344 + w.val, by have := h.isLt; have := w.isLt; omega⟩

theorem pix_eq (p : Fin 1204224) : (pixH p).val * 1344 + (pixW p).val = p.val := by
  show p.val / 1344 * 1344 + p.val % 1344 = p.val
  omega

theorem pixH_pixOf (h : Fin 896) (w : Fin 1344) : pixH (pixOf h w) = h := by
  apply Fin.ext
  show (h.val * 1344 + w.val) / 1344 = h.val
  have := w.isLt
  omega

theorem pixW_pixOf (h : Fin 896) (w : Fin 1344) : pixW (pixOf h w) = w := by
  apply Fin.ext
  show (h.val * 1344 + w.val) % 1344 = w.val
  have := w.isLt
  omega

/-- Pixel `q` of run `t`. -/
def runPix (t : Fin 49) (q : Fin 24576) : Fin 1204224 := ⟨t.val * 24576 + q.val, by have := t.isLt; have := q.isLt; omega⟩

end Cert.Pixels
-- ==== Proof.Entry.lean ====
/-
  What the kernel's region finds in its operands.

  Before the region the program lays its arguments out features-first: the image `[1, 896, 1344, 6]` is flattened to
  `[1204224, 6]` and transposed to `[6, 1204224]`, so entry `(i, p)` is feature `i` of flat pixel `p`; each weight matrix
  is transposed (and narrowed, which changes no value here), so entry `(out, in)` is the argument's `(in, out)`; each
  bias vector becomes a column, whose entry `(j, 0)` is the vector's `j`.
-/
import proofs.«138936_j58059367907527_2_alg».proof.Proof.Gen.KernelIdeal.Frame
import proofs.«138936_j58059367907527_2_alg».proof.Proof.Pixels
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Pixels

variable (m : (ℓ : Loc nD τ sig) → Buf (Elt Ideal) ℓ)

/-- The image as the region finds it: flattened, then transposed. -/
theorem image_eq (c : Dev nD) :
    (V m c main_v1 : S6x1204224.Idx → EReal)
      = transpose S6x1204224 [1, 0] (shapeCast S1204224x6 (m ((c : Thread nD τ).loc main_arg0)) shapeCasts_S1x896x1344x6_S1204224x6)
          transposes_S1204224x6_S6x1204224_1_0 := by
  show StableHlo.after hostOps0 (fun b => m (c, b)) (Proc.devRef .tc main_v1) = _
  after_results <;> rfl

/-- Entry `(i, p)` of it is feature `i` of the pixel in row `p / 1344`, column `p % 1344`. -/
theorem image_apply (c : Dev nD) (i : Fin 6) (p : Fin 1204224) :
    (V m c main_v1 : S6x1204224.Idx → EReal) (ix2 i p) = m ((c : Thread nD τ).loc main_arg0) (ix4 0 (pixH p) (pixW p) i) := by
  rw [image_eq]
  refine (transpose_apply [1, 0] _ transposes_S1204224x6_S6x1204224_1_0 (ix2 i p) (ix2 p i) fun b => ?_).trans ?_
  · match b with
    | ⟨0, _⟩ => rfl
    | ⟨1, _⟩ => rfl
  refine shapeCast_apply _ shapeCasts_S1x896x1344x6_S1204224x6 (ix2 p i) (ix4 0 (pixH p) (pixW p) i) ?_
  rw [Shape.rowMajor_val_four, Shape.rowMajor_val_two]
  show ((0 * 896 + (pixH p).val) * 1344 + (pixW p).val) * 6 + i.val = p.val * 6 + i.val
  have := pix_eq p
  omega

/-- The first layer's weights as the region finds them: transposed. -/
theorem weights1_apply (c : Dev nD) (j : Fin 32) (i : Fin 6) :
    (V m c main_v3 : S32x6.Idx → EReal) (ix2 j i) = m ((c : Thread nD τ).loc main_arg1) (ix2 i j) := by
  have e : (V m c main_v3 : S32x6.Idx → EReal)
      = truncf (F := Ideal) .bf16 (transpose S32x6 [1, 0] (m ((c : Thread nD τ).loc main_arg1)) transposes_S6x32_S32x6_1_0) bitsLt_bf16_f32 := by
    show StableHlo.after hostOps0 (fun b => m (c, b)) (Proc.devRef .tc main_v3) = _
    after_results <;> rfl
  rw [e, truncf_apply]
  refine transpose_apply [1, 0] _ transposes_S6x32_S32x6_1_0 (ix2 j i) (ix2 i j) fun b => ?_
  match b with
  | ⟨0, _⟩ => rfl
  | ⟨1, _⟩ => rfl

/-- The second layer's weights: transposed. -/
theorem weights2_apply (c : Dev nD) (k : Fin 32) (j : Fin 32) :
    (V m c main_v5 : S32x32.Idx → EReal) (ix2 k j) = m ((c : Thread nD τ).loc main_arg3) (ix2 j k) := by
  have e : (V m c main_v5 : S32x32.Idx → EReal)
      = truncf (F := Ideal) .bf16 (transpose S32x32 [1, 0] (m ((c : Thread nD τ).loc main_arg3)) transposes_S32x32_S32x32_1_0) bitsLt_bf16_f32 := by
    show StableHlo.after hostOps0 (fun b => m (c, b)) (Proc.devRef .tc main_v5) = _
    after_results <;> rfl
  rw [e, truncf_apply]
  refine transpose_apply [1, 0] _ transposes_S32x32_S32x32_1_0 (ix2 k j) (ix2 j k) fun b => ?_
  match b with
  | ⟨0, _⟩ => rfl
  | ⟨1, _⟩ => rfl

/-- The third layer's weights: transposed. -/
theorem weights3_apply (c : Dev nD) (o : Fin 3) (k : Fin 32) :
    (V m c main_v7 : S3x32.Idx → EReal) (ix2 o k) = m ((c : Thread nD τ).loc main_arg5) (ix2 k o) := by
  have e : (V m c main_v7 : S3x32.Idx → EReal)
      = truncf (F := Ideal) .bf16 (transpose S3x32 [1, 0] (m ((c : Thread nD τ).loc main_arg5)) transposes_S32x3_S3x32_1_0) bitsLt_bf16_f32 := by
    show StableHlo.after hostOps0 (fun b => m (c, b)) (Proc.devRef .tc main_v7) = _
    after_results <;> rfl
  rw [e, truncf_apply]
  refine transpose_apply [1, 0] _ transposes_S32x3_S3x32_1_0 (ix2 o k) (ix2 k o) fun b => ?_
  match b with
  | ⟨0, _⟩ => rfl
  | ⟨1, _⟩ => rfl

/-- The first layer's bias as a column. -/
theorem bias1_apply (c : Dev nD) (j : Fin 32) :
    (V m c main_v8 : S32x1.Idx → EReal) (ix2 j 0) = m ((c : Thread nD τ).loc main_arg2) (ix1 j) := by
  have e : (V m c main_v8 : S32x1.Idx → EReal)
      = shapeCast S32x1 (m ((c : Thread nD τ).loc main_arg2)) shapeCasts_S32_S32x1 := by
    show StableHlo.after hostOps0 (fun b => m (c, b)) (Proc.devRef .tc main_v8) = _
    after_results <;> rfl
  rw [e]
  refine shapeCast_apply _ shapeCasts_S32_S32x1 (ix2 j 0) (ix1 j) ?_
  rw [Shape.rowMajor_val_one, Shape.rowMajor_val_two]
  show j.val = j.val * 1 + 0
  omega

/-- The second layer's bias as a column. -/
theorem bias2_apply (c : Dev nD) (k : Fin 32) :
    (V m c main_v9 : S32x1.Idx → EReal) (ix2 k 0) = m ((c : Thread nD τ).loc main_arg4) (ix1 k) := by
  have e : (V m c main_v9 : S32x1.Idx → EReal)
      = shapeCast S32x1 (m ((c : Thread nD τ).loc main_arg4)) shapeCasts_S32_S32x1 := by
    show StableHlo.after hostOps0 (fun b => m (c, b)) (Proc.devRef .tc main_v9) = _
    after_results <;> rfl
  rw [e]
  refine shapeCast_apply _ shapeCasts_S32_S32x1 (ix2 k 0) (ix1 k) ?_
  rw [Shape.rowMajor_val_one, Shape.rowMajor_val_two]
  show k.val = k.val * 1 + 0
  omega

/-- The third layer's bias as a column. -/
theorem bias3_apply (c : Dev nD) (o : Fin 3) :
    (V m c main_v10 : S3x1.Idx → EReal) (ix2 o 0) = m ((c : Thread nD τ).loc main_arg6) (ix1 o) := by
  have e : (V m c main_v10 : S3x1.Idx → EReal)
      = shapeCast S3x1 (m ((c : Thread nD τ).loc main_arg6)) shapeCasts_S3_S3x1 := by
    show StableHlo.after hostOps0 (fun b => m (c, b)) (Proc.devRef .tc main_v10) = _
    after_results <;> rfl
  rw [e]
  refine shapeCast_apply _ shapeCasts_S3_S3x1 (ix2 o 0) (ix1 o) ?_
  rw [Shape.rowMajor_val_one, Shape.rowMajor_val_two]
  show o.val = o.val * 1 + 0
  omega

end Cert.KernelIdeal.Entry

end
-- ==== Proof.OutputArray.lean ====
/-
  The features-first result array after the region.

  The grid has 49 points. Point `t` reads pixels `24576·t … 24576·t + 24575` as the columns of its input block, reads
  the whole weight matrices and bias columns, and writes the three output features of those pixels back as columns
  `24576·t …` of the `[3, 1204224]` result. What it writes is the per-pixel network of each column, so it is a block of
  ONE function of the arguments: entry `(o, p)` is the network of pixel `p`'s six inputs, at output feature `o`. The 49
  blocks tile the array (`1204224 = 49 · 24576`), so after the region the array is that function.
-/
import proofs.«138936_j58059367907527_2_alg».proof.Proof.Gen.KernelIdeal.Frame
import proofs.«138936_j58059367907527_2_alg».proof.Proof.KernelBody
import proofs.«138936_j58059367907527_2_alg».proof.Proof.Entry
import proofs.«138936_j58059367907527_2_alg».proof.Proof.Pixels
import Idealize.ShloMosaic.Lib.Pipeline.Value

noncomputable section

namespace Cert.KernelIdeal.Output

open Cert.KernelIdeal Cert.KernelIdeal.Gen Idealize.ShloMosaic Idealize.ShloMosaic.TcCoe Idealize.SL.Sem
open Idealize.ShloMosaic.ValueIdx Cert.Pixels Cert.PixelMlp Cert.KernelIdeal.Body Cert.KernelIdeal.Entry
open Idealize.ShloMosaic.Pipeline (Dat)

variable (m : (ℓ : Loc nD τ sig) → Buf (Elt Ideal) ℓ)

/-- The network with the program's weight and bias arguments (each weight matrix is `inputs × outputs`). -/
def net (c : Dev nD) (x : Fin 6 → EReal) : Fin 3 → EReal :=
  mlp (fun j i => (m ((c : Thread nD τ).loc main_arg1) : S6x32.Idx → EReal) (ix2 i j))
    (fun j => (m ((c : Thread nD τ).loc main_arg2) : S32.Idx → EReal) (ix1 j))
    (fun k j => (m ((c : Thread nD τ).loc main_arg3) : S32x32.Idx → EReal) (ix2 j k))
    (fun k => (m ((c : Thread nD τ).loc main_arg4) : S32.Idx → EReal) (ix1 k))
    (fun o k => (m ((c : Thread nD τ).loc main_arg5) : S32x3.Idx → EReal) (ix2 k o))
    (fun o => (m ((c : Thread nD τ).loc main_arg6) : S3.Idx → EReal) (ix1 o)) x

/-- The six inputs of flat pixel `p`. -/
def inputs (c : Dev nD) (p : Fin 1204224) : Fin 6 → EReal :=
  fun i => (m ((c : Thread nD τ).loc main_arg0) : S1x896x1344x6.Idx → EReal) (ix4 0 (pixH p) (pixW p) i)

/-- The result array, features first: entry `(o, p)` is output feature `o` of the network of pixel `p`. -/
def outT (c : Dev nD) : S3x1204224.Idx → EReal := fun j => net m c (inputs m c (j 1)) (j 0)

theorem zero_offsets : (![0, 0] : Fin 2 → Nat) = fun _ => 0 := funext fun a => by fin_cases a <;> rfl

/-- The windows' index maps over the grid: the pixel block and the result block of point `t` are block `(0, t)`. -/
theorem idx_moving : ∀ t : Fin cfg0.N, win0_0.index t (0 : Fin 2) = 0 ∧ win0_0.index t (1 : Fin 2) = t.val
    ∧ win0_7.index t (0 : Fin 2) = 0 ∧ win0_7.index t (1 : Fin 2) = t.val :=
  (by decide +kernel : ∀ t : Fin grid0.N, _)

/-- The weights' and biases' blocks are the whole arrays at every point. -/
theorem idx_resident : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) : t.val < 49 := lt_of_lt_of_eq t.isLt N_0

/-- Column `q` of point `t`'s pixel block is flat pixel `24576·t + q`. -/
theorem pixels_blk (c : Dev nD) (t : Fin cfg0.N) (i : Fin 6) (q : Fin 24576) :
    (iblk m c 0 t : Vec Ideal S6x24576 .f32) (ix2 i q) = inputs m c (runPix ⟨t.val, point_lt t⟩ q) i := by
  obtain ⟨e0, e1, -, -⟩ := idx_moving t
  refine Eq.trans ?_ (image_apply m c i (runPix ⟨t.val, point_lt t⟩ q))
  show V m c main_v1 (((cfg0.win 0).blk t).view.emb (ix2 i q)) = V m c main_v1 (ix2 i (runPix ⟨t.val, point_lt t⟩ q))
  refine congrArg _ (funext fun a => Fin.ext ?_)
  match a with
  | ⟨0, _⟩ => show win0_0.index t (0 : Fin 2) * 6 + 1 * i.val = i.val; omega
  | ⟨1, _⟩ => show win0_0.index t (1 : Fin 2) * 24576 + 1 * q.val = t.val * 24576 + q.val; omega

theorem weights1_blk (c : Dev nD) (t : Fin cfg0.N) (j : Fin 32) (i : Fin 6) :
    (iblk m c 1 t : Vec Ideal S32x6 .bf16) (ix2 j i) = (m ((c : Thread nD τ).loc main_arg1) : S6x32.Idx → EReal) (ix2 i j) := by
  obtain ⟨e0, e1, -⟩ := idx_resident t
  refine Eq.trans ?_ (weights1_apply m c j i)
  show V m c main_v3 (((cfg0.win 1).blk t).view.emb (ix2 j i)) = V m c main_v3 (ix2 j i)
  refine congrArg _ (funext fun a => Fin.ext ?_)
  match a with
  | ⟨0, _⟩ => show win0_1.index t (0 : Fin 2) * 32 + 1 * j.val = j.val; omega
  | ⟨1, _⟩ => show win0_1.index t (1 : Fin 2) * 6 + 1 * i.val = i.val; omega

theorem bias1_blk (c : Dev nD) (t : Fin cfg0.N) (j : Fin 32) :
    (iblk m c 2 t : Vec Ideal S32x1 .f32) (ix2 j 0) = (m ((c : Thread nD τ).loc main_arg2) : S32.Idx → EReal) (ix1 j) := by
  obtain ⟨-, -, e0, e1, -⟩ := idx_resident t
  refine Eq.trans ?_ (bias1_apply m c j)
  show V m c main_v8 (((cfg0.win 2).blk t).view.emb (ix2 j 0)) = V m c main_v8 (ix2 j 0)
  refine congrArg _ (funext fun a => Fin.ext ?_)
  match a with
  | ⟨0, _⟩ => show win0_2.index t (0 : Fin 2) * 32 + 1 * j.val = j.val; omega
  | ⟨1, _⟩ => show win0_2.index t (1 : Fin 2) * 1 + 1 * 0 = 0; omega

theorem weights2_blk (c : Dev nD) (t : Fin cfg0.N) (k : Fin 32) (j : Fin 32) :
    (iblk m c 3 t : Vec Ideal S32x32 .bf16) (ix2 k j) = (m ((c : Thread nD τ).loc main_arg3) : S32x32.Idx → EReal) (ix2 j k) := by
  obtain ⟨-, -, -, -, e0, e1, -⟩ := idx_resident t
  refine Eq.trans ?_ (weights2_apply m c k j)
  show V m c main_v5 (((cfg0.win 3).blk t).view.emb (ix2 k j)) = V m c main_v5 (ix2 k j)
  refine congrArg _ (funext fun a => Fin.ext ?_)
  match a with
  | ⟨0, _⟩ => show win0_3.index t (0 : Fin 2) * 32 + 1 * k.val = k.val; omega
  | ⟨1, _⟩ => show win0_3.index t (1 : Fin 2) * 32 + 1 * j.val = j.val; omega

theorem bias2_blk (c : Dev nD) (t : Fin cfg0.N) (k : Fin 32) :
    (iblk m c 4 t : Vec Ideal S32x1 .f32) (ix2 k 0) = (m ((c : Thread nD τ).loc main_arg4) : S32.Idx → EReal) (ix1 k) := by
  obtain ⟨-, -, -, -, -, -, e0, e1, -⟩ := idx_resident t
  refine Eq.trans ?_ (bias2_apply m c k)
  show V m c main_v9 (((cfg0.win 4).blk t).view.emb (ix2 k 0)) = V m c main_v9 (ix2 k 0)
  refine congrArg _ (funext fun a => Fin.ext ?_)
  match a with
  | ⟨0, _⟩ => show win0_4.index t (0 : Fin 2) * 32 + 1 * k.val = k.val; omega
  | ⟨1, _⟩ => show win0_4.index t (1 : Fin 2) * 1 + 1 * 0 = 0; omega

theorem weights3_blk (c : Dev nD) (t : Fin cfg0.N) (o : Fin 3) (k : Fin 32) :
    (iblk m c 5 t : Vec Ideal S3x32 .bf16) (ix2 o k) = (m ((c : Thread nD τ).loc main_arg5) : S32x3.Idx → EReal) (ix2 k o) := by
  obtain ⟨-, -, -, -, -, -, -, -, e0, e1, -⟩ := idx_resident t
  refine Eq.trans ?_ (weights3_apply m c o k)
  show V m c main_v7 (((cfg0.win 5).blk t).view.emb (ix2 o k)) = V m c main_v7 (ix2 o k)
  refine congrArg _ (funext fun a => Fin.ext ?_)
  match a with
  | ⟨0, _⟩ => show win0_5.index t (0 : Fin 2) * 3 + 1 * o.val = o.val; omega
  | ⟨1, _⟩ => show win0_5.index t (1 : Fin 2) * 32 + 1 * k.val = k.val; omega

theorem bias3_blk (c : Dev nD) (t : Fin cfg0.N) (o : Fin 3) :
    (iblk m c 6 t : Vec Ideal S3x1 .f32) (ix2 o 0) = (m ((c : Thread nD τ).loc main_arg6) : S3.Idx → EReal) (ix1 o) := by
  obtain ⟨-, -, -, -, -, -, -, -, -, -, e0, e1⟩ := idx_resident t
  refine Eq.trans ?_ (bias3_apply m c o)
  show V m c main_v10 (((cfg0.win 6).blk t).view.emb (ix2 o 0)) = V m c main_v10 (ix2 o 0)
  refine congrArg _ (funext fun a => Fin.ext ?_)
  match a with
  | ⟨0, _⟩ => show win0_6.index t (0 : Fin 2) * 3 + 1 * o.val = o.val; omega
  | ⟨1, _⟩ => show win0_6.index t (1 : Fin 2) * 1 + 1 * 0 = 0; omega

/-- What the body stores, from blocks that hold the arguments where the layout says: at `(o, q)` the network of the
    pixel that column `q` holds. Stated over any vectors with those entries. -/
theorem stored_eq (c : Dev nD) (x0 : Vec Ideal S6x24576 .f32) (x1 : Vec Ideal S32x6 .bf16) (x2 : Vec Ideal S32x1 .f32)
    (x3 : Vec Ideal S32x32 .bf16) (x4 : Vec Ideal S32x1 .f32) (x5 : Vec Ideal S3x32 .bf16) (x6 : Vec Ideal S3x1 .f32)
    (p : Fin 24576 → Fin 1204224)
    (h0 : ∀ i q, x0 (ix2 i q) = inputs m c (p q) i)
    (h1 : ∀ j i, x1 (ix2 j i) = (m ((c : Thread nD τ).loc main_arg1) : S6x32.Idx → EReal) (ix2 i j))
    (h2 : ∀ j, x2 (ix2 j 0) = (m ((c : Thread nD τ).loc main_arg2) : S32.Idx → EReal) (ix1 j))
    (h3 : ∀ k j, x3 (ix2 k j) = (m ((c : Thread nD τ).loc main_arg3) : S32x32.Idx → EReal) (ix2 j k))
    (h4 : ∀ k, x4 (ix2 k 0) = (m ((c : Thread nD τ).loc main_arg4) : S32.Idx → EReal) (ix1 k))
    (h5 : ∀ o k, x5 (ix2 o k) = (m ((c : Thread nD τ).loc main_arg5) : S32x3.Idx → EReal) (ix2 k o))
    (h6 : ∀ o, x6 (ix2 o 0) = (m ((c : Thread nD τ).loc main_arg6) : S3.Idx → EReal) (ix1 o))
    (o : Fin 3) (q : Fin 24576) :
    k0_pay1 (F := Ideal) x0 x1 x2 x3 x4 x5 x6 (ix2 o q) = net m c (inputs m c (p q)) o := by
  rw [pay_apply]
  unfold net
  simp only [h0, h1, h2, h3, h4, h5, h6]

/-- WHAT POINT `t` WRITES BACK is its block of `outT`. -/
theorem point_writes_block (c : Dev nD) (t : Fin cfg0.N) :
    (dats m 0 c).flushed 7 t = ((cfg0.win 7).blk t).view.read (Elt Ideal) (outT m c) := by
  show (cfg0.win 7).cut (grid0.coords t) ((dats m 0 c).after 7 t) = _
  rw [after0_7]
  unfold out0_7
  rw [View.canon_unit_zero zero_offsets]
  simp only [View.ld_unit_zero (S := S6x24576) zero_offsets, View.ld_unit_zero (S := S32x6) zero_offsets, View.ld_unit_zero (S := S32x1) zero_offsets,
    View.ld_unit_zero (S := S32x32) zero_offsets, View.ld_unit_zero (S := S3x32) zero_offsets, View.ld_unit_zero (S := S3x1) zero_offsets]
  obtain ⟨-, -, e0, e1⟩ := idx_moving t
  funext y
  show k0_pay1 (F := Ideal) (iblk m c 0 t) (iblk m c 1 t) (iblk m c 2 t) (iblk m c 3 t) (iblk m c 4 t) (iblk m c 5 t)
      (iblk m c 6 t) y = outT m c (((cfg0.win 7).blk t).view.emb y)
  have hy : y = ix2 (n0 := 3) (n1 := 24576) (y 0) (y 1) := eq_ix2 (n0 := 3) (n1 := 24576) y
  have ea : (((cfg0.win 7).blk t).view.emb y) 0 = (y 0 : Fin 3) := Fin.ext (by
    show win0_7.index t (0 : Fin 2) * 3 + 1 * (y 0).val = (y 0).val; omega)
  have eb : (((cfg0.win 7).blk t).view.emb y) 1 = runPix ⟨t.val, point_lt t⟩ (y 1) := Fin.ext (by
    show win0_7.index t (1 : Fin 2) * 24576 + 1 * (y 1).val = t.val * 24576 + (y 1).val; omega)
  unfold outT
  rw [ea, eb, hy]
  exact stored_eq m c _ _ _ _ _ _ _ (fun q => runPix ⟨t.val, point_lt t⟩ q) (pixels_blk m c t) (weights1_blk m c t)
    (bias1_blk m c t) (weights2_blk m c t) (bias2_blk m c t) (weights3_blk m c t) (bias3_blk m c t) (y 0) (y 1)

/-- An index of the array is in point `t`'s block iff each coordinate is in the block's range on its axis. -/
theorem mem_result_block (t : Fin cfg0.N) (i : S3x1204224.Idx) :
    i ∈ ((cfg0.win 7).blk t).view.set ↔ ∀ a : Fin 2, win0_7.index t a * S3x24576.size a ≤ (i a).val
      ∧ (i a).val < win0_7.index t a * S3x24576.size a + S3x24576.size a := by
  show i ∈ ((View.whole main_v11).slice (win0_7.rect t)).set ↔ _
  rw [View.set_slice_whole, Rect.mem_set_unit]
  exact Iff.rfl

/-- Every entry is in the block of the point that holds its pixel: point `p / 24576`. -/
theorem blocks_cover (i : S3x1204224.Idx) :
    ∃ t : Fin cfg0.N, (cfg0.win 7).flush t = true ∧ i ∈ ((cfg0.win 7).blk t).view.set := by
  have h0 : (i 0).val < 3 := (i 0).isLt
  have h1 : (i 1).val < 1204224 := (i 1).isLt
  have hN : cfg0.N = 49 := N_0
  have hlt : (i 1).val / 24576 < cfg0.N := by rw [hN]; omega
  obtain ⟨-, -, e0, e1⟩ := idx_moving ⟨(i 1).val / 24576, hlt⟩
  refine ⟨⟨(i 1).val / 24576, hlt⟩, flush0_7 _, ?_⟩
  rw [mem_result_block]
  intro a
  match a with
  | ⟨0, _⟩ =>
    show win0_7.index ⟨(i 1).val / 24576, hlt⟩ (0 : Fin 2) * 3 ≤ (i 0).val
      ∧ (i 0).val < win0_7.index ⟨(i 1).val / 24576, hlt⟩ (0 : Fin 2) * 3 + 3
    omega
  | ⟨1, _⟩ =>
    show win0_7.index ⟨(i 1).val / 24576, hlt⟩ (1 : Fin 2) * 24576 ≤ (i 1).val
      ∧ (i 1).val < win0_7.index ⟨(i 1).val / 24576, hlt⟩ (1 : Fin 2) * 24576 + 24576
    have e1' : win0_7.index ⟨(i 1).val / 24576, hlt⟩ (1 : Fin 2) = (i 1).val / 24576 := e1
    omega

/-- THE ARRAY after the region: `outT`. -/
theorem result_array (c : Dev nD) : (dats m 0 c).arrAt 7 cfg0.N = outT m c :=
  (dats m 0 c).arrAt_eq_of_cover 7 (outT m c) (fun t _ => point_writes_block m c t) blocks_cover

end Cert.KernelIdeal.Output

end
-- ==== Proof.RefStages.lean ====
/-
  The reference's stages, read at an entry.

  The reference keeps the pixels as rows: each layer is a contraction of the features axis with a `features × outputs`
  weight matrix (features on the left of each product), plus the bias broadcast over the pixels, then the maximum with
  zero. Read at pixel `(h, w)` and output feature `c`, its result is the per-pixel network of that pixel's six inputs,
  with each weight matrix read transposed.
-/
import proofs.«138936_j58059367907527_2_alg».proof.Proof.Gen.ReferenceIdeal.Read
import proofs.«138936_j58059367907527_2_alg».proof.Proof.PixelMlp

noncomputable section

namespace Cert.ReferenceIdeal.Stages

open Cert.ReferenceIdeal Cert.ReferenceIdeal.Read Idealize.ShloMosaic Idealize.ShloMosaic.ValueIdx Cert.PixelMlp

variable (a0 : (⟨S1x896x1344x6, .f32⟩ : BufTy).Contents (Elt Ideal)) (a1 : (⟨S6x32, .f32⟩ : BufTy).Contents (Elt Ideal))
  (a2 : (⟨S32, .f32⟩ : BufTy).Contents (Elt Ideal)) (a3 : (⟨S32x32, .f32⟩ : BufTy).Contents (Elt Ideal))
  (a4 : (⟨S32, .f32⟩ : BufTy).Contents (Elt Ideal)) (a5 : (⟨S32x3, .f32⟩ : BufTy).Contents (Elt Ideal))
  (a6 : (⟨S3, .f32⟩ : BufTy).Contents (Elt Ideal))

/-- The first hidden layer at pixel `(h, w)`, feature `j`. -/
theorem hidden1_apply (h : Fin 896) (w : Fin 1344) (j : Fin 32) :
    val_main_v4 (F := Ideal) a0 a1 a2 (ix4 0 h w j)
      = denseRelu (fun j i => a1 (ix2 i j)) (fun j => a2 (ix1 j)) (fun i => a0 (ix4 0 h w i)) j := by
  rw [val_main_v4_apply, val_main_v3_apply, val_main_v0_apply, val_main_v2_apply, val_main_v1_apply,
    val_main_call0_v0_apply, val_main_call0_cst_apply]
  have el : ∀ k : Fin 6, lidx_main_v0 (ix4 0 h w j) k = ix4 0 h w k := fun k => funext fun a => Fin.ext (by
    match a with
    | ⟨0, _⟩ => rfl
    | ⟨1, _⟩ => rfl
    | ⟨2, _⟩ => rfl
    | ⟨3, _⟩ => rfl)
  have er : ∀ k : Fin 6, ridx_main_v0 (ix4 0 h w j) k = ix2 k j := fun k => funext fun a => Fin.ext (by
    match a with
    | ⟨0, _⟩ => rfl
    | ⟨1, _⟩ => rfl)
  have eb : idx_main_v1 (idx_main_v2 (ix4 0 h w j)) = ix1 j := funext fun a => Fin.ext (by
    match a with
    | ⟨0, _⟩ => rfl)
  simp only [el, er, eb]
  exact denseRelu_comm (fun j i => a1 (ix2 i j)) (fun j => a2 (ix1 j)) (fun i => a0 (ix4 0 h w i)) j

/-- The second hidden layer at pixel `(h, w)`, feature `k`. -/
theorem hidden2_apply (h : Fin 896) (w : Fin 1344) (k : Fin 32) :
    val_main_v9 (F := Ideal) a0 a1 a2 a3 a4 (ix4 0 h w k)
      = denseRelu (fun k j => a3 (ix2 j k)) (fun k => a4 (ix1 k))
          (denseRelu (fun j i => a1 (ix2 i j)) (fun j => a2 (ix1 j)) (fun i => a0 (ix4 0 h w i))) k := by
  rw [val_main_v9_apply, val_main_v8_apply, val_main_v5_apply, val_main_v7_apply, val_main_v6_apply,
    val_main_call1_v0_apply, val_main_call1_cst_apply]
  have el : ∀ j : Fin 32, lidx_main_v5 (ix4 0 h w k) j = ix4 0 h w j := fun j => funext fun a => Fin.ext (by
    match a with
    | ⟨0, _⟩ => rfl
    | ⟨1, _⟩ => rfl
    | ⟨2, _⟩ => rfl
    | ⟨3, _⟩ => rfl)
  have er : ∀ j : Fin 32, ridx_main_v5 (ix4 0 h w k) j = ix2 j k := fun j => funext fun a => Fin.ext (by
    match a with
    | ⟨0, _⟩ => rfl
    | ⟨1, _⟩ => rfl)
  have eb : idx_main_v6 (idx_main_v7 (ix4 0 h w k)) = ix1 k := funext fun a => Fin.ext (by
    match a with
    | ⟨0, _⟩ => rfl)
  simp only [el, er, eb, hidden1_apply]
  exact denseRelu_comm (fun k j => a3 (ix2 j k)) (fun k => a4 (ix1 k)) _ k

/-- The result at pixel `(h, w)`, output feature `c`: the network of the pixel's inputs, each weight matrix transposed. -/
theorem result_apply (h : Fin 896) (w : Fin 1344) (c : Fin 3) :
    val_main_v14 (F := Ideal) a0 a1 a2 a3 a4 a5 a6 (ix4 0 h w c)
      = mlp (fun j i => a1 (ix2 i j)) (fun j => a2 (ix1 j)) (fun k j => a3 (ix2 j k)) (fun k => a4 (ix1 k))
          (fun c k => a5 (ix2 k c)) (fun c => a6 (ix1 c)) (fun i => a0 (ix4 0 h w i)) c := by
  rw [val_main_v14_apply, val_main_v13_apply, val_main_v10_apply, val_main_v12_apply, val_main_v11_apply,
    val_main_call2_v0_apply, val_main_call2_cst_apply]
  have el : ∀ k : Fin 32, lidx_main_v10 (ix4 0 h w c) k = ix4 0 h w k := fun k => funext fun a => Fin.ext (by
    match a with
    | ⟨0, _⟩ => rfl
    | ⟨1, _⟩ => rfl
    | ⟨2, _⟩ => rfl
    | ⟨3, _⟩ => rfl)
  have er : ∀ k : Fin 32, ridx_main_v10 (ix4 0 h w c) k = ix2 k c := fun k => funext fun a => Fin.ext (by
    match a with
    | ⟨0, _⟩ => rfl
    | ⟨1, _⟩ => rfl)
  have eb : idx_main_v11 (idx_main_v12 (ix4 0 h w c)) = ix1 c := funext fun a => Fin.ext (by
    match a with
    | ⟨0, _⟩ => rfl)
  simp only [el, er, eb, hidden2_apply]
  exact denseRelu_comm (fun c k => a5 (ix2 k c)) (fun c => a6 (ix1 c)) _ c

end Cert.ReferenceIdeal.Stages

end
-- ==== Proof.KernelRun.lean ====
/-
  The kernel program's run, read: its result is the reference's function of the arguments.

  After the region the program transposes the `[3, 1204224]` array to `[1204224, 3]` and splits the pixel axis back into
  rows and columns. So the result at `(0, h, w, o)` is the features-first array at `(o, 1344·h + w)`: output feature `o`
  of the network of the pixel in row `h`, column `w` — which is what the reference computes there.
-/
import proofs.«138936_j58059367907527_2_alg».proof.Proof.OutputArray
import proofs.«138936_j58059367907527_2_alg».proof.Proof.RefStages

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.Pixels Cert.PixelMlp Cert.KernelIdeal.Output

variable (m : (ℓ : Loc nD τ sig) → Buf (Elt Ideal) ℓ) (ρ : Dev nD → PrngReg)

/-- The reference's function of this program's argument arrays. -/
abbrev expected (c : Dev nD) : Buf (Elt Ideal) ((c.tc : Thread nD τ).loc main_v13) :=
  Cert.ReferenceIdeal.Read.val_main_v14 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The features-first array at `(o, 1344·h + w)` is the reference's result at `(0, h, w, o)`. -/
theorem outT_apply (c : Dev nD) (h : Fin 896) (w : Fin 1344) (o : Fin 3) :
    outT m c (ix2 o (pixOf h w)) = expected m c (ix4 0 h w o) := by
  show net m c (inputs m c (pixOf h w)) o = _
  unfold inputs net
  rw [pixH_pixOf, pixW_pixOf]
  exact (Cert.ReferenceIdeal.Stages.result_apply _ _ _ _ _ _ _ h w o).symm

/-- What the lines after the region leave in the result buffer. -/
theorem result_eq (c : Dev nD) :
    Pipeline.afterTail₀ cfgs (dats m) 0 (V0 m) [hostOps1] c main_v13 = expected m c := by
  unfold Pipeline.afterTail₀
  show StableHlo.after hostOps1 _ (Proc.devRef .tc main_v13) = _
  after_results
  funext i
  have hi : i = ix4 (n0 := 1) (n1 := 896) (n2 := 1344) (n3 := 3) 0 (i 1) (i 2) (i 3) := by
    funext a
    match a with
    | ⟨0, _⟩ => exact Subsingleton.elim (α := Fin 1) _ _
    | ⟨1, _⟩ => rfl
    | ⟨2, _⟩ => rfl
    | ⟨3, _⟩ => rfl
  rw [hi]
  generalize (i 1 : Fin 896) = h
  generalize (i 2 : Fin 1344) = w
  generalize (i 3 : Fin 3) = o
  show shapeCast S1x896x1344x3 _ shapeCasts_S1204224x3_S1x896x1344x3 (ix4 0 h w o) = _
  refine (shapeCast_apply _ shapeCasts_S1204224x3_S1x896x1344x3 (ix4 0 h w o) (ix2 (pixOf h w) o) ?_).trans ?_
  · rw [Shape.rowMajor_val_four, Shape.rowMajor_val_two]
    show (h.val * 1344 + w.val) * 3 + o.val = ((0 * 896 + h.val) * 1344 + w.val) * 3 + o.val
    omega
  refine (transpose_apply [1, 0] _ transposes_S3x1204224_S1204224x3_1_0 (ix2 (pixOf h w) o) (ix2 o (pixOf h w)) fun b => ?_).trans ?_
  · match b with
    | ⟨0, _⟩ => rfl
    | ⟨1, _⟩ => rfl
  refine (congrFun ((Pipeline.withArrays_arr spec0 launch0.win.arr_inj c _ _ 7).trans (result_array m c)) (ix2 o (pixOf h w))).trans ?_
  exact outT_apply m c h w o

/-- THE RUN, READ: every weakly fair execution terminates with the result buffer at the reference's function of the
    argument arrays, and the arguments unchanged. -/
theorem run : θ_run defs (onTc (τ := τ) (main (F := Ideal))) ⟨m, fun _ => 0, ρ⟩ fun r => ∀ c : Dev nD,
      r.2.mem ((c.tc : Thread nD τ).loc main_v13) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.lean ====
/-
  A per-pixel three-layer network (6 → 32 → 32 → 3, a rectifier after each layer) over an `896 × 1344` image, computed two
  ways that agree on the extended reals.

  The kernel program flattens the image to `1204224` pixels and keeps them as the COLUMNS of a `6 × 1204224` matrix; a grid
  of 49 points each takes 24576 columns, multiplies by the transposed weight matrices (weights on the left of every
  product, each product accumulated into zero, intermediates narrowed to sixteen bits — the identity on the extended
  reals), adds the bias columns, takes the maximum with zero, and writes three rows of 24576 columns back; the program then
  transposes and unflattens. The reference keeps the pixels as ROWS and contracts the features axis with each weight
  matrix (features on the left of every product).

  Both are, at pixel `(h, w)` and output feature `o`, the same nested sum: the only algebra between them is that
  multiplication of extended reals commutes, so the precondition (finite inputs) is never opened. The rest is layout:
  pixel `p` is row `p / 1344`, column `p % 1344`, and `1204224 = 49 · 24576`, so the 49 blocks tile the result.

  No operation of the kernel needed rewriting to be read on the extended reals, so the word-level program's idealization
  is its own text read there, and that claim is trivial. The three frames are the programs' runs with the results dropped.
-/
import proofs.«138936_j58059367907527_2_alg».proof.Defs
import proofs.«138936_j58059367907527_2_alg».proof.Proof.Gen.Kernel
import proofs.«138936_j58059367907527_2_alg».proof.Proof.Gen.Kernel.Skeleton
import proofs.«138936_j58059367907527_2_alg».proof.Proof.Gen.Kernel.Launch
import proofs.«138936_j58059367907527_2_alg».proof.Proof.Gen.Kernel.Points
import proofs.«138936_j58059367907527_2_alg».proof.Proof.Gen.Kernel.Frame
import proofs.«138936_j58059367907527_2_alg».proof.Proof.Gen.KernelIdeal
import proofs.«138936_j58059367907527_2_alg».proof.Proof.Gen.KernelIdeal.Skeleton
import proofs.«138936_j58059367907527_2_alg».proof.Proof.Gen.KernelIdeal.Launch
import proofs.«138936_j58059367907527_2_alg».proof.Proof.Gen.KernelIdeal.Points
import proofs.«138936_j58059367907527_2_alg».proof.Proof.Gen.KernelIdeal.Frame
import proofs.«138936_j58059367907527_2_alg».proof.Proof.Gen.ReferenceIdeal
import proofs.«138936_j58059367907527_2_alg».proof.Proof.Gen.Pre_finite_inputs
import proofs.«138936_j58059367907527_2_alg».proof.Proof.Gen.ReferenceIdeal.Run
import proofs.«138936_j58059367907527_2_alg».proof.Proof.Gen.ReferenceIdeal.Read
import proofs.«138936_j58059367907527_2_alg».proof.Proof.KernelRun
import Idealize.ShloMosaic.Adequacy
import Idealize.ShloMosaic.Init

noncomputable section

namespace Cert.Proof

open Idealize.ShloMosaic Idealize.SL.Sem

/-- The word-level kernel program terminates without a fault and leaves its arguments as they were. -/
theorem frame_kernel : Cert.frame_Kernel := fun m ρ _ => Cert.Kernel.Gen.frame m ρ

/-- So does the same program read on the extended reals. -/
theorem frame_kernel_ideal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten, so nothing is owed. -/
theorem preserves : Cert.preserves_Kernel_KernelIdeal := trivial

/-- From memories that agree on the arguments both programs end with the reference's function of the arguments in their
    result buffers: the kernel program by its run read back, the reference by its own run, the agreement rewritten. -/
theorem algebraic : Cert.algebraic_KernelIdeal_ReferenceIdeal := by
  intro m ρ m' ρ' _ hagree
  refine ⟨fun c => Cert.KernelIdeal.Result.expected m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
